-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S1 : Shape := ⟨1, ![1]⟩
abbrev S8192 : Shape := ⟨1, ![8192]⟩
abbrev S256x256 : Shape := ⟨2, ![256, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S1 : S_.BroadcastsInDim S1 (![] : Fin 0 → Fin S1.rank)
  reducesTo_S1_S_d0 : S1.ReducesTo [0] S_
  bcast_S_S8192 : S_.BroadcastsInDim S8192 (![] : Fin 0 → Fin S8192.rank)
  reducesTo_S8192_S_d0 : S8192.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256x256 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  main_v23

def fn {F : FTy → Type} [FloatOps F] (main_arg0 : FVec F S8192x256 .f32) (main_arg1 : FVec F S8192x8192 .f32) (main_arg2 : FVec F S1 .f32) (main_arg3 : FVec F S8192 .f32) (main_arg4 : FVec F S256x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_v13 main_v16
-- ==== Kernel.lean ====
abbrev S8192x256 : Shape := ⟨2, ![8192, 256]⟩
abbrev S8192x8192 : Shape := ⟨2, ![8192, 8192]⟩
abbrev S1 : Shape := ⟨1, ![1]⟩
abbrev S8192 : Shape := ⟨1, ![8192]⟩
abbrev S256x256 : Shape := ⟨2, ![256, 256]⟩
abbrev S_ : Shape := ⟨0, ![]⟩
abbrev S8192x1 : Shape := ⟨2, ![8192, 1]⟩
abbrev S1024x2048 : Shape := ⟨2, ![1024, 2048]⟩
abbrev S1024x1 : Shape := ⟨2, ![1024, 1]⟩
abbrev S1024x256 : Shape := ⟨2, ![1024, 256]⟩
abbrev S2048x256 : Shape := ⟨2, ![2048, 256]⟩

abbrev nBuf : Space → Nat
  | .hbm => 25
  | .vmem => 9
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S1, .f32⟩
  | .hbm, ⟨3, _⟩ => ⟨S8192, .f32⟩
  | .hbm, ⟨4, _⟩ => ⟨S256x256, .f32⟩
  | .hbm, ⟨5, _⟩ => ⟨S1, .f32⟩
  | .hbm, ⟨6, _⟩ => ⟨S1, .f32⟩
  | .hbm, ⟨7, _⟩ => ⟨S_, .f32⟩
  | .hbm, ⟨8, _⟩ => ⟨S1, .f32⟩
  | .hbm, ⟨9, _⟩ => ⟨S1, .f32⟩
  | .hbm, ⟨10, _⟩ => ⟨S_, .f32⟩
  | .hbm, ⟨11, _⟩ => ⟨S1, .f32⟩
  | .hbm, ⟨12, _⟩ => ⟨S1, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192, .f32⟩
  | .hbm, ⟨22, _⟩ => ⟨S8192, .f32⟩
  | .hbm, ⟨23, _⟩ => ⟨S8192x1, .f32⟩
  | .hbm, ⟨24, _⟩ => ⟨S8192x256, .f32⟩
  | .local _ .vmem, ⟨0, _⟩ => ⟨S1024x2048, .f32⟩
  | .local _ .vmem, ⟨1, _⟩ => ⟨S1024x2048, .f32⟩
  | .local _ .vmem, ⟨2, _⟩ => ⟨S8192x256, .f32⟩
  | .local _ .vmem, ⟨3, _⟩ => ⟨S256x256, .f32⟩
  | .local _ .vmem, ⟨4, _⟩ => ⟨S1024x1, .f32⟩
  | .local _ .vmem, ⟨5, _⟩ => ⟨S1024x1, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def k0_mult2 (i : grid0.Coords) : BitVec 32 :=
  let arg0 : BitVec 32 := BitVec.ofNat 32 (i 0).val
  let c1024_i32 : BitVec 32 := 1024#32
  let v28 : BitVec 32 := Scalar.muli arg0 c1024_i32
  v28
def k0_off2 (i : grid0.Coords) : Fin 2 → Nat :=
  let arg0 : BitVec 32 := BitVec.ofNat 32 (i 0).val
  let c1024_i32 : BitVec 32 := 1024#32
  let v28 : BitVec 32 := Scalar.muli arg0 c1024_i32
  let v29 : BitVec 32 := v28
  let v30 : Index := Scalar.indexCast v29
  let c0_16 : Index := 0#32
  ![v30.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S1 : S_.BroadcastsInDim S1 (![] : Fin 0 → Fin S1.rank)
  bcast_S_S8192 : S_.BroadcastsInDim S8192 (![] : Fin 0 → Fin S8192.rank)
  bcast_S1_S8192_0 : S1.BroadcastsInDim S8192 (![0] : Fin 1 → Fin S8192.rank)
  bcast_S8192_S8192x1_0 : S8192.BroadcastsInDim S8192x1 (![0] : Fin 1 → Fin S8192x1.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  h_S2048x256 : 0 < S2048x256.numel
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  dot_S1024x2048_S2048x256_S1024x256_1_0_0_1_n_n_wf : DotDims.WF S1024x2048 S2048x256 S1024x256 [1] [0] [0] [1] [] []
  dot_S1024x256_S256x256_S1024x256_1_0_0_1_n_n_wf : DotDims.WF S1024x256 S256x256 S1024x256 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x256.size a ≤ S8192x256.size a
  k0_mult2_dvd : ∀ i : grid0.Coords, ∀ (k0_h2 : k0_cond2 i = 1#1), 1024 ∣ (k0_mult2 i).toNat
  k0_off2_inb : ∀ i : grid0.Coords, ∀ (k0_h2 : k0_cond2 i = 1#1), ∀ a, (k0_off2 i) a + S1024x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .f32 = 32 ∨ (Rect.block (s := S8192x256) S1024x256.size (cc0_transform_4 i) (hinb0_4 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S1 : Shape := ⟨1, ![1]⟩
abbrev S8192 : Shape := ⟨1, ![8192]⟩
abbrev S256x256 : Shape := ⟨2, ![256, 256]⟩
abbrev S_ : Shape := ⟨0, ![]⟩
abbrev S8192x1 : Shape := ⟨2, ![8192, 1]⟩

abbrev nBuf : Space → Nat
  | .hbm => 35
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S1, .f32⟩
  | .hbm, ⟨3, _⟩ => ⟨S8192, .f32⟩
  | .hbm, ⟨4, _⟩ => ⟨S256x256, .f32⟩
  | .hbm, ⟨5, _⟩ => ⟨S8192x256, .f32⟩
  | .hbm, ⟨6, _⟩ => ⟨S8192x256, .f32⟩
  | .hbm, ⟨7, _⟩ => ⟨S_, .f32⟩
  | .hbm, ⟨8, _⟩ => ⟨S8192x256, .f32⟩
  | .hbm, ⟨9, _⟩ => ⟨S8192x256, .f32⟩
  | .hbm, ⟨10, _⟩ => ⟨S1, .f32⟩
  | .hbm, ⟨11, _⟩ => ⟨S1, .f32⟩
  | .hbm, ⟨12, _⟩ => ⟨S_, .f32⟩
  | .hbm, ⟨13, _⟩ => ⟨S1, .f32⟩
  | .hbm, ⟨14, _⟩ => ⟨S1, .f32⟩
  | .hbm, ⟨15, _⟩ => ⟨S_, .f32⟩
  | .hbm, ⟨16, _⟩ => ⟨S1, .f32⟩
  | .hbm, ⟨17, _⟩ => ⟨S1, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S8192, .f32⟩
  | .hbm, ⟨28, _⟩ => ⟨S8192x1, .f32⟩
  | .hbm, ⟨29, _⟩ => ⟨S8192x256, .f32⟩
  | .hbm, ⟨30, _⟩ => ⟨S8192x256, .f32⟩
  | .hbm, ⟨31, _⟩ => ⟨S8192x256, .f32⟩
  | .hbm, ⟨32, _⟩ => ⟨S8192x256, .f32⟩
  | .hbm, ⟨33, _⟩ => ⟨S8192x256, .f32⟩
  | .hbm, ⟨34, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  bcast_S_S8192x256 : S_.BroadcastsInDim S8192x256 (![] : Fin 0 → Fin S8192x256.rank)
  bcast_S_S1 : S_.BroadcastsInDim S1 (![] : Fin 0 → Fin S1.rank)
  bcast_S_S8192 : S_.BroadcastsInDim S8192 (![] : Fin 0 → Fin S8192.rank)
  bcast_S1_S8192_0 : S1.BroadcastsInDim S8192 (![0] : Fin 1 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  dot_S8192x8192_S8192x256_S8192x256_1_0_0_1_n_n_wf : DotDims.WF S8192x8192 S8192x256 S8192x256 [1] [0] [0] [1] [] []
  dot_S8192x256_S256x256_S8192x256_1_0_0_1_n_n_wf : DotDims.WF S8192x256 S256x256 S8192x256 [1] [0] [0] [1] [] []

variable [Facts₀]

def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

class Facts : Prop extends Facts₀ where

variable [Facts]
-- ==== Proof.Found.lean ====
/-
  What the kernel body leaves behind at a grid point, as values.

  At grid point `(i, k)` the body keeps a 1024 × 256 accumulator between points. It reads 2048 rows of the resident
  feature matrix starting at row `2048 · k` (`stepRows`) and, at the last step, the point's own 1024 rows starting at row
  `1024 · i` (`ownRows`).
  * first step (`k = 0`): the accumulator is reset and then grows by the block's product: it ends as one step from the
    zero block;
  * a later step: it grows by the block's product from what the point before left;
  * the last step (`k = 3`): likewise, and the output block is the finish applied to the accumulator just stored.
  Every load and store of a staging buffer is of the whole buffer, so a load reads the buffer's contents and one store
  leaves its value; only the two row ranges of the resident features are proper parts of a buffer.
-/
import proofs.«105935_j56341380989597_2_alg».proof.Proof.Gen.KernelIdeal.Value
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Found

open Cert.KernelIdeal Cert.KernelIdeal.Gen

variable {F : FTy → Type} [FloatOps F]

theorem hz : (![0, 0] : Fin 2 → Nat) = fun _ => 0 := funext fun a => by fin_cases a <;> rfl

/-- The 2048 rows of the resident features that the accumulation step at grid point `i` multiplies by. -/
abbrev stepRows (i : grid0.Coords) (x1 : Vec F S8192x256 .f32) : Vec F S2048x256 .f32 :=
  View.ld x1 (Rect.unit (s := S8192x256) (k0_off1 i) S2048x256.size (k0_off1_inb i))

/-- The 1024 rows of the resident features that belong to the output block of grid point `i` (read at a last step). -/
abbrev ownRows (i : grid0.Coords) (h : cond0_1 i) (x1 : Vec F S8192x256 .f32) : Vec F S1024x256 .f32 :=
  View.ld x1 (Rect.unit (s := S8192x256) (k0_off2 i) S1024x256.size (k0_off2_inb i h))

/-- A first step leaves one step from the zero block in the accumulator. -/
theorem scratch_first (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : cond0_0 i) (hc1 : ¬cond0_1 i)
    (x0 : Vec F S1024x2048 .f32) (x1 : Vec F S8192x256 .f32) (x2 : Vec F S256x256 .f32) (x3 : Vec F S1024x1 .f32) :
    sout0_A_0 c i arg2 harg2 arg3 harg3 arg4 harg4 arg5 harg5 arg6 harg6 arg7 harg7 hc0 hc1 x0 x1 x2 x3 = k0_pay2 (stepRows i x1) x0 k0_pay1 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1024x256) hz, View.readCov_unit_zero (S := S1024x256) _ hz]
  simp only [View.readAt_eq_ld, harg2.read_unread, harg3.read_unread, View.ld_unit_zero (S := S1024x2048) hz]
  rfl

/-- A middle step leaves one step from what the point before left. -/
theorem scratch_middle (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond0_0 i) (hc1 : ¬cond0_1 i)
    (x0 : Vec F S1024x2048 .f32) (x1 : Vec F S8192x256 .f32) (x2 : Vec F S256x256 .f32) (x3 : Vec F S1024x1 .f32) (xs0 : Vec F S1024x256 .f32) :
    sout0_B_0 c i arg2 harg2 arg3 harg3 arg4 harg4 arg5 harg5 arg6 harg6 arg7 harg7 hc0 hc1 x0 x1 x2 x3 xs0 = k0_pay2 (stepRows i x1) x0 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  simp only [View.readAt_eq_ld, harg2.read_unread, harg3.read_unread, harg7.read_unread,
    View.ld_unit_zero (S := S1024x2048) hz, View.ld_unit_zero (S := S1024x256) hz]
  rfl

/-- A last step leaves one step from what the point before left, too. -/
theorem scratch_last (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond0_0 i) (hc1 : cond0_1 i)
    (x0 : Vec F S1024x2048 .f32) (x1 : Vec F S8192x256 .f32) (x2 : Vec F S256x256 .f32) (x3 : Vec F S1024x1 .f32) (xs0 : Vec F S1024x256 .f32) :
    sout0_C_0 c i arg2 harg2 arg3 harg3 arg4 harg4 arg5 harg5 arg6 harg6 arg7 harg7 hc0 hc1 x0 x1 x2 x3 xs0 = k0_pay2 (stepRows i x1) x0 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg7.read_unread,
    View.ld_unit_zero (S := S1024x2048) hz, View.ld_unit_zero (S := S1024x256) hz]
  rfl

/-- A last step's output block: the finish of the accumulator it has just stored, the weight, the gate block and the
    point's own rows of the features. -/
theorem out_last (c : Dev nD) (i : grid0.Coords) (arg2 : Memref sig .tc .vmem S1024x2048 .f32) (harg2 : arg2.IsWhole) (arg3 : Memref sig .tc .vmem S8192x256 .f32) (harg3 : arg3.IsWhole) (arg4 : Memref sig .tc .vmem S256x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hc0 : ¬cond0_0 i) (hc1 : cond0_1 i)
    (x0 : Vec F S1024x2048 .f32) (x1 : Vec F S8192x256 .f32) (x2 : Vec F S256x256 .f32) (x3 : Vec F S1024x1 .f32) (xs0 : Vec F S1024x256 .f32) :
    out0_C_4 c i arg2 harg2 arg3 harg3 arg4 harg4 arg5 harg5 arg6 harg6 arg7 harg7 hc0 hc1 x0 x1 x2 x3 xs0
      = k0_pay3 (k0_pay2 (stepRows i x1) x0 xs0) x2 x3 (ownRows i hc1 x1) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz, View.readCov_unit_zero (S := S1024x256) _ hz]
  simp only [View.readAt_eq_ld, harg2.read_unread, harg3.read_unread, harg4.read_unread, harg5.read_unread, harg7.read_unread,
    View.ld_unit_zero (S := S1024x2048) hz, View.ld_unit_zero (S := S1024x256) hz, View.ld_unit_zero (S := S256x256) hz,
    View.ld_unit_zero (S := S1024x1) hz]
  rfl

end Cert.KernelIdeal.Found

end
-- ==== Proof.LibRealSums.lean ====
/-
  Real-valued families of extended reals, and the two laws of finite sums that hold for them.

  On the extended reals a product does not distribute over a sum in general.  It does as soon as the summands and the
  factor are real numbers: then every term is real and the law is the real one.  This file names "every value is a real
  number" (`IsReal`), shows that sums, products, maxima and selections of real values are real, and proves
  `(∑ b) * w = ∑ (b * w)` for real `b` and `w`, from which follow the two regroupings a graph layer needs: a masked
  sum of row-by-matrix products is the product of the masked sum of rows (`sum_ite_contract`), and a row-by-matrix
  product scaled by a real number is the product of the scaled row (`contract_mul`).
-/
import Mathlib.Data.EReal.Operations
import Mathlib.Data.EReal.Inv
import Mathlib.Algebra.BigOperators.Group.Finset.Sigma
import Mathlib.Algebra.BigOperators.Group.Finset.Basic
import Mathlib.Algebra.BigOperators.Ring.Finset

open scoped BigOperators

namespace Cert.Lib

/-- Every value of the family is a real number. -/
def IsReal {ι : Type*} (f : ι → EReal) : Prop := ∀ i, ∃ r : ℝ, f i = (r : EReal)

/-- The inclusion of the reals as an additive homomorphism. -/
def coeHom : ℝ →+ EReal where
  toFun := fun r => (r : EReal)
  map_zero' := EReal.coe_zero
  map_add' := EReal.coe_add

/-- The inclusion of the reals commutes with finite sums. -/
theorem coe_sum {ι : Type*} (s : Finset ι) (f : ι → ℝ) : ((∑ i ∈ s, f i : ℝ) : EReal) = ∑ i ∈ s, (f i : EReal) :=
  map_sum coeHom f s

theorem isReal_zero : ∃ r : ℝ, (0 : EReal) = (r : EReal) := ⟨0, EReal.coe_zero.symm⟩
theorem isReal_one : ∃ r : ℝ, (1 : EReal) = (r : EReal) := ⟨1, EReal.coe_one.symm⟩

theorem isReal_add {a b : EReal} (ha : ∃ r : ℝ, a = r) (hb : ∃ r : ℝ, b = r) : ∃ r : ℝ, a + b = (r : EReal) := by
  obtain ⟨x, rfl⟩ := ha; obtain ⟨y, rfl⟩ := hb; exact ⟨x + y, (EReal.coe_add x y).symm⟩

theorem isReal_mul {a b : EReal} (ha : ∃ r : ℝ, a = r) (hb : ∃ r : ℝ, b = r) : ∃ r : ℝ, a * b = (r : EReal) := by
  obtain ⟨x, rfl⟩ := ha; obtain ⟨y, rfl⟩ := hb; exact ⟨x * y, (EReal.coe_mul x y).symm⟩

theorem isReal_max {a b : EReal} (ha : ∃ r : ℝ, a = r) (hb : ∃ r : ℝ, b = r) : ∃ r : ℝ, max a b = (r : EReal) := by
  rcases max_choice a b with h | h
  · rw [h]; exact ha
  · rw [h]; exact hb

theorem isReal_ite {P : Prop} [Decidable P] {a b : EReal} (ha : ∃ r : ℝ, a = r) (hb : ∃ r : ℝ, b = r) :
    ∃ r : ℝ, (if P then a else b) = (r : EReal) := by
  split
  · exact ha
  · exact hb

/-- A finite sum of real values is real. -/
theorem isReal_sum {ι : Type*} (s : Finset ι) (f : ι → EReal) (hf : IsReal f) : ∃ r : ℝ, ∑ i ∈ s, f i = (r : EReal) := by
  choose f' hf' using hf
  exact ⟨∑ i ∈ s, f' i, by rw [coe_sum]; exact Finset.sum_congr rfl fun i _ => hf' i⟩

/-- A real value is neither infinity. -/
theorem ne_top_bot_of_isReal {a : EReal} (ha : ∃ r : ℝ, a = r) : a ≠ ⊤ ∧ a ≠ ⊥ := by
  obtain ⟨x, rfl⟩ := ha; exact ⟨EReal.coe_ne_top x, EReal.coe_ne_bot x⟩

/-- The inverse of a real value (with `0⁻¹ = 0` as in the reals... on the extended reals the inverse of zero is the
    real `0` too) is real. -/
theorem isReal_inv {a : EReal} (ha : ∃ r : ℝ, a = r) : ∃ r : ℝ, a⁻¹ = (r : EReal) := by
  obtain ⟨x, rfl⟩ := ha; exact ⟨x⁻¹, (EReal.coe_inv x).symm⟩

/-- Right distributivity over a finite sum of real values by a real factor. -/
theorem sum_mul_of_isReal {ι : Type*} (s : Finset ι) (b : ι → EReal) (w : EReal) (hb : IsReal b) (hw : ∃ r : ℝ, w = r) :
    (∑ i ∈ s, b i) * w = ∑ i ∈ s, b i * w := by
  obtain ⟨w', rfl⟩ := hw
  choose b' hb' using hb
  have hbb : b = fun i => (b' i : EReal) := funext hb'
  subst hbb
  rw [← coe_sum, ← EReal.coe_mul, Finset.sum_mul, coe_sum]
  exact Finset.sum_congr rfl fun i _ => EReal.coe_mul _ _

/-- A masked sum over `e` of the contractions `∑ k, h e k * w k` is the contraction of the masked sums, for real
    `h` and `w`. -/
theorem sum_ite_contract {ε κ : Type*} [Fintype ε] [Fintype κ] (P : ε → Prop) [DecidablePred P]
    (h : ε → κ → EReal) (w : κ → EReal) (hh : ∀ e, IsReal (h e)) (hw : IsReal w) :
    ∑ e, (if P e then ∑ k, h e k * w k else 0) = ∑ k, (∑ e, if P e then h e k else 0) * w k := by
  have h1 : ∀ e, (if P e then ∑ k, h e k * w k else 0) = ∑ k, (if P e then h e k else 0) * w k := by
    intro e
    by_cases hP : P e
    · simp only [if_pos hP]
    · simp only [if_neg hP, zero_mul, Finset.sum_const_zero]
  rw [Finset.sum_congr rfl fun e _ => h1 e, Finset.sum_comm]
  refine Finset.sum_congr rfl fun k _ => ?_
  exact (sum_mul_of_isReal Finset.univ (fun e => if P e then h e k else 0) (w k)
    (fun e => isReal_ite (hh e k) isReal_zero) (hw k)).symm

/-- A contraction scaled by a real `d` is the contraction of the scaled row, for real terms. -/
theorem contract_mul {κ : Type*} [Fintype κ] (a w : κ → EReal) (d : EReal) (ha : IsReal a) (hw : IsReal w)
    (hd : ∃ r : ℝ, d = r) : (∑ k, a k * w k) * d = ∑ k, (a k * d) * w k := by
  rw [sum_mul_of_isReal Finset.univ (fun k => a k * w k) d (fun k => isReal_mul (ha k) (hw k)) hd]
  exact Finset.sum_congr rfl fun k _ => mul_right_comm _ _ _

end Cert.Lib
-- ==== Proof.LibBlockSum.lean ====
/-
  A sum over the first `J * B` natural numbers, taken block by block.
-/
import Mathlib.Algebra.BigOperators.Fin
import Mathlib.Data.Fintype.BigOperators
import Mathlib.Logic.Equiv.Fin.Basic

namespace Cert.Lib

/-- A sum over the first `J * B` naturals is the sum, over the `J` consecutive blocks of `B` naturals, of each
    block's own sum: `∑_{s < J} ∑_{l < B} f (B·s + l) = ∑_{k < J·B} f k`. It holds in any commutative additive monoid
    — only commutativity and associativity of `+` are used —, so also on the extended reals, where no cancellation or
    distributivity is available: the pairs `(s, l)` and the naturals `B·s + l` below `J·B` correspond one to one. -/
theorem sum_blocks {M : Type*} [AddCommMonoid M] (J B : ℕ) (f : ℕ → M) :
    ∑ s ∈ Finset.range J, ∑ l : Fin B, f (B * s + l.val) = ∑ k : Fin (J * B), f k.val := by
  rw [Finset.sum_range (fun s => ∑ l : Fin B, f (B * s + l.val))]
  rw [← Fintype.sum_prod_type' (fun (s : Fin J) (l : Fin B) => f (B * s.val + l.val))]
  refine Fintype.sum_equiv finProdFinEquiv _ _ (fun x => ?_)
  show f (B * x.1.val + x.2.val) = f (x.2.val + B * x.1.val)
  rw [Nat.add_comm]

end Cert.Lib
-- ==== Proof.Spec.lean ====
/-
  The mathematics of one graph-convolution layer with a gated residual, over the extended reals.

  For node features `X` (8192 × 256), a dense adjacency `A` (8192 × 8192), a weight `W` (256 × 256) and a gate column
  `g` (8192 × 1), the layer's value at node `r`, feature `q` is

      X r q + g r · (max (((A X) W) r q) 0 − X r q)          (the blended form)

  or, written as a convex combination,

      g r · max (((A X) W) r q) 0 + X r q − g r · X r q        (the mixed form).

  The two agree whenever every quantity is a real number; on the extended reals the step from one to the other is
  distributivity, which fails at the infinities, so the statement asks for real values.

  The neighbourhood sum `(A X) r j = ∑ n, A r n · X n j` is also taken four blocks of 2048 neighbours at a time:
  `part` is the sum over the first `k` blocks, and after four blocks it is the whole sum. Only commutativity and
  associativity of `+` are used there, so this holds for arbitrary extended reals.
-/
import Idealize.ShloMosaic.PureOps.Ideal
import Idealize.ShloMosaic.Lib.ValueIdx
import proofs.«105935_j56341380989597_2_alg».proof.Proof.LibRealSums
import proofs.«105935_j56341380989597_2_alg».proof.Proof.LibBlockSum

noncomputable section

open scoped BigOperators

namespace Cert.Gnn

open Idealize.ShloMosaic Idealize.ShloMosaic.ValueIdx Cert.Lib

/-- An entry of a matrix read at natural-number coordinates: the entry when the coordinates are inside, `0` outside.
    It lets a block of a matrix be described by arithmetic on the coordinates alone. -/
def rd {a b : ℕ} (Y : (⟨2, ![a, b]⟩ : Shape).Idx → EReal) (r c : ℕ) : EReal :=
  if h : r < a ∧ c < b then Y (ix2 ⟨r, h.1⟩ ⟨c, h.2⟩) else 0

theorem rd_val {a b : ℕ} (Y : (⟨2, ![a, b]⟩ : Shape).Idx → EReal) (r : Fin a) (c : Fin b) :
    rd Y r.val c.val = Y (ix2 r c) := by
  unfold rd
  rw [dif_pos ⟨r.isLt, c.isLt⟩]

/-- An entry at an index whose coordinates are known as natural numbers. -/
theorem eq_rd {a b : ℕ} (Y : (⟨2, ![a, b]⟩ : Shape).Idx → EReal) (i : (⟨2, ![a, b]⟩ : Shape).Idx) (r c : ℕ)
    (hr : (i 0).val = r) (hc : (i 1).val = c) : Y i = rd Y r c := by
  subst hr; subst hc
  exact (congrArg Y (eq_ix2 i)).trans (rd_val Y (i 0) (i 1)).symm

/-- Reading real-valued entries gives real values. -/
theorem isReal_rd {a b : ℕ} (Y : (⟨2, ![a, b]⟩ : Shape).Idx → EReal) (hY : IsReal Y) (r c : ℕ) :
    ∃ x : ℝ, rd Y r c = (x : EReal) := by
  unfold rd
  split
  · exact hY _
  · exact isReal_zero

/-- The neighbourhood sum of node `r`, feature `j`, over the first `k` blocks of 2048 neighbours. -/
def part (A : (⟨2, ![8192, 8192]⟩ : Shape).Idx → EReal) (X : (⟨2, ![8192, 256]⟩ : Shape).Idx → EReal) (r j k : ℕ) : EReal :=
  ∑ s ∈ Finset.range k, ∑ l : Fin 2048, rd A r (2048 * s + l.val) * rd X (2048 * s + l.val) j

theorem part_zero (A : (⟨2, ![8192, 8192]⟩ : Shape).Idx → EReal) (X : (⟨2, ![8192, 256]⟩ : Shape).Idx → EReal) (r j : ℕ) :
    part A X r j 0 = 0 := Finset.sum_range_zero _

/-- One more block: the sum so far plus the block's own sum. -/
theorem part_succ (A : (⟨2, ![8192, 8192]⟩ : Shape).Idx → EReal) (X : (⟨2, ![8192, 256]⟩ : Shape).Idx → EReal) (r j k : ℕ) :
    part A X r j (k + 1) = part A X r j k + ∑ l : Fin 2048, rd A r (2048 * k + l.val) * rd X (2048 * k + l.val) j :=
  Finset.sum_range_succ _ k

/-- The whole neighbourhood sum `(A X) r j`. -/
def nbr (A : (⟨2, ![8192, 8192]⟩ : Shape).Idx → EReal) (X : (⟨2, ![8192, 256]⟩ : Shape).Idx → EReal) (r : Fin 8192) (j : Fin 256) :
    EReal := ∑ n : Fin 8192, A (ix2 r n) * X (ix2 n j)

/-- Four blocks of 2048 neighbours are all 8192 of them. -/
theorem part_four (A : (⟨2, ![8192, 8192]⟩ : Shape).Idx → EReal) (X : (⟨2, ![8192, 256]⟩ : Shape).Idx → EReal)
    (r : Fin 8192) (j : Fin 256) : part A X r.val j.val 4 = nbr A X r j := by
  unfold part nbr
  rw [sum_blocks 4 2048 (fun n => rd A r.val n * rd X n j.val)]
  show ∑ n : Fin 8192, rd A r.val n.val * rd X n.val j.val = _
  exact Finset.sum_congr rfl fun n _ => by rw [rd_val, rd_val]

/-- The aggregated and rectified feature `max (((A X) W) r q) 0`. -/
def agg (A : (⟨2, ![8192, 8192]⟩ : Shape).Idx → EReal) (X : (⟨2, ![8192, 256]⟩ : Shape).Idx → EReal)
    (W : (⟨2, ![256, 256]⟩ : Shape).Idx → EReal) (r : Fin 8192) (q : Fin 256) : EReal :=
  max (∑ j : Fin 256, nbr A X r j * W (ix2 j q)) 0

/-- The layer in the blended form `x + g · (agg − x)`. -/
def blended (A : (⟨2, ![8192, 8192]⟩ : Shape).Idx → EReal) (X : (⟨2, ![8192, 256]⟩ : Shape).Idx → EReal)
    (W : (⟨2, ![256, 256]⟩ : Shape).Idx → EReal) (g : (⟨2, ![8192, 1]⟩ : Shape).Idx → EReal) :
    (⟨2, ![8192, 256]⟩ : Shape).Idx → EReal :=
  fun i => X i + g (ix2 (i 0) 0) * (agg A X W (i 0) (i 1) - X i)

/-- The layer in the mixed form `g · agg + x − g · x`. -/
def mixed (A : (⟨2, ![8192, 8192]⟩ : Shape).Idx → EReal) (X : (⟨2, ![8192, 256]⟩ : Shape).Idx → EReal)
    (W : (⟨2, ![256, 256]⟩ : Shape).Idx → EReal) (g : (⟨2, ![8192, 1]⟩ : Shape).Idx → EReal) :
    (⟨2, ![8192, 256]⟩ : Shape).Idx → EReal :=
  fun i => g (ix2 (i 0) 0) * agg A X W (i 0) (i 1) + X i - g (ix2 (i 0) 0) * X i

/-- For real numbers `x + s (a − x) = s a + x − s x`, read on the extended reals. -/
theorem blend_eq_mix {x s a : EReal} (hx : ∃ r : ℝ, x = r) (hs : ∃ r : ℝ, s = r) (ha : ∃ r : ℝ, a = r) :
    x + s * (a - x) = s * a + x - s * x := by
  obtain ⟨x, rfl⟩ := hx; obtain ⟨s, rfl⟩ := hs; obtain ⟨a, rfl⟩ := ha
  rw [← EReal.coe_sub, ← EReal.coe_mul, ← EReal.coe_add, ← EReal.coe_mul, ← EReal.coe_add, ← EReal.coe_mul, ← EReal.coe_sub]
  congr 1
  ring

/-- The neighbourhood sum of real entries is real. -/
theorem isReal_nbr {A : (⟨2, ![8192, 8192]⟩ : Shape).Idx → EReal} {X : (⟨2, ![8192, 256]⟩ : Shape).Idx → EReal}
    (hA : IsReal A) (hX : IsReal X) (r : Fin 8192) (j : Fin 256) : ∃ x : ℝ, nbr A X r j = (x : EReal) :=
  isReal_sum _ _ fun n => isReal_mul (hA _) (hX _)

/-- The aggregated feature of real entries is real. -/
theorem isReal_agg {A : (⟨2, ![8192, 8192]⟩ : Shape).Idx → EReal} {X : (⟨2, ![8192, 256]⟩ : Shape).Idx → EReal}
    {W : (⟨2, ![256, 256]⟩ : Shape).Idx → EReal} (hA : IsReal A) (hX : IsReal X) (hW : IsReal W) (r : Fin 8192) (q : Fin 256) :
    ∃ x : ℝ, agg A X W r q = (x : EReal) :=
  isReal_max (isReal_sum _ _ fun j => isReal_mul (isReal_nbr hA hX r j) (hW _)) isReal_zero

/-- On real entries and a real gate the two forms of the layer are one function. -/
theorem blended_eq_mixed {A : (⟨2, ![8192, 8192]⟩ : Shape).Idx → EReal} {X : (⟨2, ![8192, 256]⟩ : Shape).Idx → EReal}
    {W : (⟨2, ![256, 256]⟩ : Shape).Idx → EReal} {g : (⟨2, ![8192, 1]⟩ : Shape).Idx → EReal}
    (hA : IsReal A) (hX : IsReal X) (hW : IsReal W) (hg : IsReal g) : blended A X W g = mixed A X W g :=
  funext fun i => blend_eq_mix (hX i) (hg _) (isReal_agg hA hX hW _ _)

end Cert.Gnn

end
-- ==== Proof.Blocks.lean ====
/-
  The blocks the pipeline hands the body, in the coordinates of the whole arrays (over the extended reals).

  The grid's 32 points are numbered `t = 4 · i + k` with `i` the block of 1024 output rows and `k` the block of 2048
  neighbours. At point `t`
  * the adjacency block is rows `1024 · i + p`, columns `2048 · k + l`;
  * the features and the weight are resident: their block is the whole array;
  * the gate block is rows `1024 · i + p` of the gate column;
  * the body's own two row ranges of the resident features start at row `2048 · k` and at row `1024 · i`.
  These relations between the printed index maps and `t` are decided once over the 32 points.
-/
import proofs.«105935_j56341380989597_2_alg».proof.Proof.Found
import proofs.«105935_j56341380989597_2_alg».proof.Proof.Spec

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Found Cert.Gnn Idealize.ShloMosaic.ValueIdx

variable (m : (ℓ : Loc nD τ sig) → Buf (Elt Ideal) ℓ)

/-- The printed index maps and row offsets as functions of the point's number, decided over the grid. -/
theorem idx_facts : ∀ t : Fin cfg0.N,
    win0_0.index t (0 : Fin 2) = t.val / 4 ∧ win0_0.index t (1 : Fin 2) = t.val % 4
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 4 ∧ win0_3.index t (1 : Fin 2) = 0
    ∧ win0_4.index t (0 : Fin 2) = t.val / 4 ∧ win0_4.index t (1 : Fin 2) = 0
    ∧ k0_off1 (grid0.coords t) (0 : Fin 2) = 2048 * (t.val % 4) ∧ k0_off1 (grid0.coords t) (1 : Fin 2) = 0
    ∧ k0_off2 (grid0.coords t) (0 : Fin 2) = 1024 * (t.val / 4) ∧ k0_off2 (grid0.coords t) (1 : Fin 2) = 0 :=
  (by decide +kernel : ∀ t : Fin grid0.N, _)

/-- The adjacency, the features, the weight and the gate column as the region finds them. -/
abbrev adj (c : Dev nD) : S8192x8192.Idx → EReal := V m c main_arg1
abbrev feat (c : Dev nD) : S8192x256.Idx → EReal := V m c main_arg0
abbrev wgt (c : Dev nD) : S256x256.Idx → EReal := V m c main_arg4
abbrev gate (c : Dev nD) : S8192x1.Idx → EReal := V m c main_v14

/-- The adjacency block of point `t`. -/
theorem adj_block (c : Dev nD) (t : Fin cfg0.N) (p : Fin 1024) (l : Fin 2048) :
    iblk m c 0 t (ix2 p l) = rd (adj m c) (1024 * (t.val / 4) + p.val) (2048 * (t.val % 4) + l.val) := by
  obtain ⟨e0, e1, -⟩ := idx_facts t
  unfold iblk
  rw [View.read_apply]
  refine eq_rd (adj m c) _ _ _ ?_ ?_
  · show win0_0.index t (0 : Fin 2) * 1024 + 1 * p.val = _
    rw [e0]; omega
  · show win0_0.index t (1 : Fin 2) * 2048 + 1 * l.val = _
    rw [e1]; omega

/-- The features' block is the whole array. -/
theorem feat_block (c : Dev nD) (t : Fin cfg0.N) (n : Fin 8192) (j : Fin 256) :
    iblk m c 1 t (ix2 n j) = rd (feat m c) n.val j.val := by
  obtain ⟨-, -, e0, e1, -⟩ := idx_facts t
  unfold iblk
  rw [View.read_apply]
  refine eq_rd (feat m c) _ _ _ ?_ ?_
  · show win0_1.index t (0 : Fin 2) * 8192 + 1 * n.val = _
    rw [e0]; omega
  · show win0_1.index t (1 : Fin 2) * 256 + 1 * j.val = _
    rw [e1]; omega

/-- The weight's block is the whole array. -/
theorem wgt_block (c : Dev nD) (t : Fin cfg0.N) (j : Fin 256) (q : Fin 256) :
    iblk m c 2 t (ix2 j q) = wgt m c (ix2 j q) := by
  obtain ⟨-, -, -, -, e0, e1, -⟩ := idx_facts t
  unfold iblk
  rw [View.read_apply]
  refine congrArg (wgt m c) (funext fun a => Fin.ext ?_)
  match a with
  | ⟨0, _⟩ =>
    show win0_2.index t (0 : Fin 2) * 256 + 1 * j.val = j.val
    rw [e0]; omega
  | ⟨1, _⟩ =>
    show win0_2.index t (1 : Fin 2) * 256 + 1 * q.val = q.val
    rw [e1]; omega

/-- The gate block of point `t`. -/
theorem gate_block (c : Dev nD) (t : Fin cfg0.N) (p : Fin 1024) :
    iblk m c 3 t (ix2 p (0 : Fin 1)) = rd (gate m c) (1024 * (t.val / 4) + p.val) 0 := by
  obtain ⟨-, -, -, -, -, -, e0, e1, -⟩ := idx_facts t
  unfold iblk
  rw [View.read_apply]
  refine eq_rd (gate m c) _ _ _ ?_ ?_
  · show win0_3.index t (0 : Fin 2) * 1024 + 1 * p.val = _
    rw [e0]; omega
  · show win0_3.index t (1 : Fin 2) * 1 + 1 * (0 : Fin 1).val = _
    rw [e1]; rfl

/-- The rows an accumulation step reads start at row `2048 · k`. -/
theorem stepRows_apply (t : Fin cfg0.N) (x : Vec Ideal S8192x256 .f32) (l : Fin 2048) (q : Fin 256) :
    stepRows (grid0.coords t) x (ix2 l q) = rd x (2048 * (t.val % 4) + l.val) q.val := by
  obtain ⟨-, -, -, -, -, -, -, -, -, -, e0, e1, -⟩ := idx_facts t
  refine eq_rd x _ _ _ ?_ ?_
  · show k0_off1 (grid0.coords t) (0 : Fin 2) + 1 * l.val = _
    rw [e0]; omega
  · show k0_off1 (grid0.coords t) (1 : Fin 2) + 1 * q.val = _
    rw [e1]; omega

/-- The point's own rows start at row `1024 · i`. -/
theorem ownRows_apply (t : Fin cfg0.N) (h : cond0_1 (grid0.coords t)) (x : Vec Ideal S8192x256 .f32) (p : Fin 1024) (q : Fin 256) :
    ownRows (grid0.coords t) h x (ix2 p q) = rd x (1024 * (t.val / 4) + p.val) q.val := by
  obtain ⟨-, -, -, -, -, -, -, -, -, -, -, -, e0, e1⟩ := idx_facts t
  refine eq_rd x _ _ _ ?_ ?_
  · show k0_off2 (grid0.coords t) (0 : Fin 2) + 1 * p.val = _
    rw [e0]; omega
  · show k0_off2 (grid0.coords t) (1 : Fin 2) + 1 * q.val = _
    rw [e1]; omega

/-- Reading the whole-array block of the features at natural coordinates is reading the features there. -/
theorem rd_feat_block (c : Dev nD) (t : Fin cfg0.N) (r j : ℕ) :
    rd (iblk m c 1 t : Vec Ideal S8192x256 .f32) r j = rd (feat m c) r j := by
  unfold rd
  by_cases h : r < 8192 ∧ j < 256
  · rw [dif_pos h, dif_pos h]
    exact (feat_block m c t ⟨r, h.1⟩ ⟨j, h.2⟩).trans (rd_val (feat m c) ⟨r, h.1⟩ ⟨j, h.2⟩)
  · rw [dif_neg h, dif_neg h]

end Cert.KernelIdeal.Blocks

end
-- ==== Proof.LibPlainDot.lean ====
/-
  A plain matrix product read at an index.

  For the dimension numbers of an ordinary `[M, K] × [K, N] → [M, N]` product (the left operand's axis 1 contracted with the
  right operand's axis 0, no batch axis), the contraction index is its one coordinate, and the operand indices at output
  index `(p, q)` and contraction coordinate `k` are `(p, k)` and `(k, q)`.  So at the extended reals both the host's
  `dot_general` and a `tpu.matmul` into a zero accumulator are `∑ k : Fin K, l (p, k) · r (k, q)`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a plain product, re-indexed by the contracted coordinate. -/
theorem plain_contr_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => rfl
    | ⟨1, _⟩ =>
      refine ((DotDims.plain M K N).lhsIdx_val_of_single (cl := (1 : Fin 2)) rfl (ix2 p q) _).trans ?_
      exact contrEquiv1_symm_val (DotDims.plain M K N) K rfl rfl k
  have hr : (DotDims.plain M K N).rhsIdx (ix2 p q) ((contrEquiv1 (DotDims.plain M K N) K rfl rfl).symm k) = ix2 k q := by
    funext a
    refine Fin.ext ?_
    match a with
    | ⟨0, _⟩ =>
      refine ((DotDims.plain M K N).rhsIdx_val_of_single (cr := (0 : Fin 2)) rfl (ix2 p q) _).trans ?_
      exact contrEquiv1_symm_val (DotDims.plain M K N) K rfl rfl k
    | ⟨1, _⟩ => rfl
  rw [hl, hr]

/-- The host's `dot_general` with plain dimension numbers, at an index, over the extended reals. -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_contr_sum l r p q)

/-- A `tpu.matmul` with plain dimension numbers into the zero accumulator, at an index, over the extended reals. -/
theorem matmul_plain_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_contr_sum l r p q)

end Cert.Lib

end
-- ==== Proof.LibKeepdims.lean ====
/-
  Two layout operations read at an index given by coordinates, for the column that a row-wise sum with kept
  dimensions produces: a vector `[a]` cast to the column `[a, 1]`, and a column `[a, 1]` broadcast over `b` lanes.
  They complete the row forms of the library's layout lemmas (a leading unit axis added, one row broadcast over many).
-/
import Idealize.ShloMosaic.Lib.ValueLayout

namespace Cert.LibKeepdims

open Idealize.ShloMosaic Idealize.ShloMosaic.ValueIdx

variable {α : Type}

/-- An `[a]` vector cast to the column `[a, 1]` reads, at `(i, u)`, the operand at `i`, whatever the unit coordinate `u`:
    both indices have the same row-major position, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the row coordinate is kept
    (when `a = 1` it is `0` anyway) and the unit axis reads its one coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Payload.lean ====
/-
  The three values the layer's kernel body stores, read at an index over the extended reals.

  * the reset: the accumulator is filled with zeros;
  * one accumulation step: entry `(p, q)` of the accumulator grows by the product of row `p` of a 1024 × 2048 block of
    the adjacency with column `q` of the matching 2048 rows of the features, `∑ l, a p l · x l q`;
  * the finish: with `h p q = max (∑ j, acc p j · w j q) 0` the stored entry is `x p q + g p · (h p q − x p q)`, the gate
    `g` being a column broadcast over the 256 features.

  A change of float format is the identity on the extended reals, a matrix product into a zero accumulator is the plain
  sum of products, and the zero word is the number `0`.
-/
import proofs.«105935_j56341380989597_2_alg».proof.Proof.Gen.KernelIdeal.Skeleton
import proofs.«105935_j56341380989597_2_alg».proof.Proof.LibPlainDot
import proofs.«105935_j56341380989597_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- The dimension numbers of the accumulation step's product are those of a plain 1024 × 2048 by 2048 × 256 product. -/
theorem dims_step : dot_S1024x2048_S2048x256_S1024x256_1_0_0_1_n_n = DotDims.plain 1024 2048 256 := rfl

/-- The dimension numbers of the finish's product are those of a plain 1024 × 256 by 256 × 256 product. -/
theorem dims_finish : dot_S1024x256_S256x256_S1024x256_1_0_0_1_n_n = DotDims.plain 1024 256 256 := rfl

/-- The reset stores zeros. -/
theorem reset_apply (j : S1024x256.Idx) : k0_pay1 (F := Ideal) j = 0 := by
  unfold k0_pay1
  refine (congrFun (shapeCast_self _ _) j).trans ?_
  exact Ideal.ofBits_zero_f32

/-- One accumulation step at `(p, q)`: what was there plus `∑ l, a p l · x l q`. -/
theorem step_apply (x : Vec Ideal S2048x256 .f32) (a : Vec Ideal S1024x2048 .f32) (acc : Vec Ideal S1024x256 .f32)
    (p : Fin 1024) (q : Fin 256) :
    k0_pay2 x a acc (ix2 p q) = acc (ix2 p q) + ∑ l : Fin 2048, a (ix2 p l) * x (ix2 l q) := by
  unfold k0_pay2
  refine (congrFun (shapeCast_self _ _) (ix2 p q)).trans ?_
  refine (addf_apply _ _ (ix2 p q)).trans ?_
  refine congrArg (acc (ix2 p q) + ·) ?_
  exact Cert.Lib.matmul_plain_zero_apply (M := 1024) (K := 2048) (N := 256) none _ _ p q

/-- The finish at `(p, q)`: `x p q + g p · (max (∑ j, acc p j · w j q) 0 − x p q)`. -/
theorem finish_apply (acc : Vec Ideal S1024x256 .f32) (w : Vec Ideal S256x256 .f32) (g : Vec Ideal S1024x1 .f32)
    (x : Vec Ideal S1024x256 .f32) (p : Fin 1024) (q : Fin 256) :
    k0_pay3 acc w g x (ix2 p q)
      = x (ix2 p q) + g (ix2 p (0 : Fin 1)) * (max (∑ j : Fin 256, acc (ix2 p j) * w (ix2 j q)) 0 - x (ix2 p q)) := by
  unfold k0_pay3
  refine (addf_apply _ _ (ix2 p q)).trans ?_
  refine congrArg (x (ix2 p q) + ·) ?_
  refine (mulf_apply _ _ (ix2 p q)).trans ?_
  refine congrArg₂ (· * ·) ?_ ?_
  · exact (Cert.LibKeepdims.broadcastTo_a1_ab_apply (a := 1024) (b := 256) _ broadcasts_S1024x1_S1024x256 p q).trans
      (congrFun (shapeCast_self g shapeCasts_S1024x1_S1024x1) _)
  · refine (subf_apply _ _ (ix2 p q)).trans ?_
    refine congrArg (· - x (ix2 p q)) ?_
    refine (maximumf_apply _ _ (ix2 p q)).trans ?_
    exact congrArg₂ max
      (Cert.Lib.matmul_plain_zero_apply (M := 1024) (K := 256) (N := 256) none _ _ p q) Ideal.ofBits_zero_f32

end Cert.KernelIdeal.Pay

end
-- ==== Proof.Accum.lean ====
/-
  The accumulator across the grid.

  Points are numbered `n = 4 · i + k`. After point `n` the accumulator holds, at `(p, j)`, the neighbourhood sum of node
  `1024 · i + p`, feature `j`, over the first `k + 1` blocks of 2048 neighbours: the first step of each row block starts
  from zero, every later step adds its block to what the point before left. This is an induction on the point's number;
  after a last step (`k = 3`) all four blocks are in, and the output block is the finish applied to that accumulator.
-/
import proofs.«105935_j56341380989597_2_alg».proof.Proof.Blocks
import proofs.«105935_j56341380989597_2_alg».proof.Proof.Payload

set_option maxRecDepth 16384
set_option maxHeartbeats 1000000

noncomputable section

open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.Found Cert.KernelIdeal.Blocks Cert.Gnn Idealize.ShloMosaic.ValueIdx

variable (m : (ℓ : Loc nD τ sig) → Buf (Elt Ideal) ℓ)

/-- After a first step the accumulator is one step from the zero block. -/
theorem after_first (c : Dev nD) (t : Fin cfg0.N) (h0 : t.val % 4 = 0) (h1 : ¬t.val % 4 = 3) :
    (outsAt0 m c t.val t.isLt).2
      = k0_pay2 (stepRows (grid0.coords t) (iblk m c 1 t)) (iblk m c 0 t) (k0_pay1 (F := Ideal)) :=
  (congrArg Prod.snd (outsAt0_A m c t h0 h1)).trans
    (scratch_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t))

/-- After a middle step it is one step from what the point before left. -/
theorem after_middle (c : Dev nD) (t : Fin cfg0.N) (h0 : ¬t.val % 4 = 0) (h1 : ¬t.val % 4 = 3) :
    (outsAt0 m c t.val t.isLt).2 = k0_pay2 (stepRows (grid0.coords t) (iblk m c 1 t)) (iblk m c 0 t)
      (outsAt0 m c (t.val - 1) (Nat.lt_of_le_of_lt (Nat.sub_le _ _) t.isLt)).2 :=
  (congrArg Prod.snd (outsAt0_B m c t h0 h1)).trans
    (scratch_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t)
      (outsAt0 m c (t.val - 1) (Nat.lt_of_le_of_lt (Nat.sub_le _ _) t.isLt)).2)

/-- After a last step likewise. -/
theorem after_last (c : Dev nD) (t : Fin cfg0.N) (h0 : ¬t.val % 4 = 0) (h1 : t.val % 4 = 3) :
    (outsAt0 m c t.val t.isLt).2 = k0_pay2 (stepRows (grid0.coords t) (iblk m c 1 t)) (iblk m c 0 t)
      (outsAt0 m c (t.val - 1) (Nat.lt_of_le_of_lt (Nat.sub_le _ _) t.isLt)).2 :=
  (congrArg Prod.snd (outsAt0_C m c t h0 h1)).trans
    (scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
      (outsAt0 m c (t.val - 1) (Nat.lt_of_le_of_lt (Nat.sub_le _ _) t.isLt)).2)

/-- A last step's output block is the finish of the accumulator that step leaves. -/
theorem out_at_last (c : Dev nD) (t : Fin cfg0.N) (h0 : ¬t.val % 4 = 0) (h1 : t.val % 4 = 3) :
    (outsAt0 m c t.val t.isLt).1 = k0_pay3 (outsAt0 m c t.val t.isLt).2 (iblk m c 2 t) (iblk m c 3 t)
      (ownRows (grid0.coords t) ((hcond0_1 t).mpr h1) (iblk m c 1 t)) :=
  ((congrArg Prod.fst (outsAt0_C m c t h0 h1)).trans
    (out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
      (outsAt0 m c (t.val - 1) (Nat.lt_of_le_of_lt (Nat.sub_le _ _) t.isLt)).2)).trans
    (congrArg (fun a => k0_pay3 a (iblk m c 2 t) (iblk m c 3 t)
      (ownRows (grid0.coords t) ((hcond0_1 t).mpr h1) (iblk m c 1 t))) (after_last m c t h0 h1).symm)

/-- One step at point `n`, in the coordinates of the whole arrays. -/
theorem step_at (c : Dev nD) (n : ℕ) (h : n < cfg0.N) (acc : Vec Ideal S1024x256 .f32) (p : Fin 1024) (q : Fin 256) :
    k0_pay2 (stepRows (grid0.coords ⟨n, h⟩) (iblk m c 1 ⟨n, h⟩)) (iblk m c 0 ⟨n, h⟩) acc (ix2 p q)
      = acc (ix2 p q) + ∑ l : Fin 2048, rd (adj m c) (1024 * (n / 4) + p.val) (2048 * (n % 4) + l.val)
          * rd (feat m c) (2048 * (n % 4) + l.val) q.val := by
  refine (Pay.step_apply _ _ acc p q).trans ?_
  refine congrArg (acc (ix2 p q) + ·) (Finset.sum_congr rfl fun l _ => ?_)
  exact congrArg₂ (· * ·) (adj_block m c ⟨n, h⟩ p l)
    ((stepRows_apply ⟨n, h⟩ (iblk m c 1 ⟨n, h⟩) l q).trans (rd_feat_block m c ⟨n, h⟩ _ _))

/-- The invariant: after point `n = 4 i + k` the accumulator at `(p, j)` is the neighbourhood sum of node `1024 i + p`,
    feature `j`, over the first `k + 1` blocks of neighbours. -/
theorem acc_eq (c : Dev nD) (n : ℕ) : ∀ (h : n < cfg0.N) (p : Fin 1024) (q : Fin 256),
    (outsAt0 m c n h).2 (ix2 p q) = part (adj m c) (feat m c) (1024 * (n / 4) + p.val) q.val (n % 4 + 1) := by
  induction n with
  | zero =>
    intro h p q
    have e := after_first m c ⟨0, h⟩ (Nat.zero_mod 4) (show ¬(0 % 4 = 3) by decide)
    refine (congrFun e (ix2 p q)).trans ?_
    refine (step_at m c 0 h _ p q).trans ?_
    rw [Pay.reset_apply, zero_add, part_succ, part_zero, zero_add]
  | succ n ih =>
    intro h p q
    have hN : n + 1 < 32 := lt_of_lt_of_eq h (show cfg0.N = 32 from N_0)
    by_cases h0 : (n + 1) % 4 = 0
    · have e := after_first m c ⟨n + 1, h⟩ h0 (show ¬((n + 1) % 4 = 3) by omega)
      refine (congrFun e (ix2 p q)).trans ?_
      refine (step_at m c (n + 1) h _ p q).trans ?_
      rw [Pay.reset_apply, zero_add, h0, part_succ, part_zero, zero_add]
    · have e : (outsAt0 m c (n + 1) h).2
          = k0_pay2 (stepRows (grid0.coords ⟨n + 1, h⟩) (iblk m c 1 ⟨n + 1, h⟩)) (iblk m c 0 ⟨n + 1, h⟩)
              (outsAt0 m c n (Nat.lt_of_succ_lt h)).2 := by
        by_cases h1 : (n + 1) % 4 = 3
        · exact after_last m c ⟨n + 1, h⟩ h0 h1
        · exact after_middle m c ⟨n + 1, h⟩ h0 h1
      refine (congrFun e (ix2 p q)).trans ?_
      refine (step_at m c (n + 1) h _ p q).trans ?_
      rw [ih (Nat.lt_of_succ_lt h) p q]
      have d : (n + 1) / 4 = n / 4 := by omega
      have r : (n + 1) % 4 = n % 4 + 1 := by omega
      rw [d, r]
      exact (part_succ _ _ _ _ _).symm

end Cert.KernelIdeal.Accum

end
-- ==== Proof.LibRealOps.lean ====
/-
  Host operations keep real values real.

  At the extended reals a gather, a broadcast, a reshape or a transposition only re-reads its operand; a scatter-add
  adds finitely many update values to an operand value; a sum, product or maximum of two real values is real.  The
  reciprocal degree `1 / max (deg, 1)` of a real degree is real and its divisor is never zero; and so is the guarded
  reciprocal `if deg > 0 then 1 / deg else 0`.
-/
import Idealize.ShloMosaic.PureOps.Ideal
import Idealize.ShloMosaic.PureOps.Ideal.Laws
import Idealize.ShloMosaic.Lib.ValueIdx
import Idealize.ShloMosaic.Lib.IdealHost
import proofs.«105935_j56341380989597_2_alg».proof.Proof.LibRealSums

noncomputable section

open scoped BigOperators

namespace Cert.Lib

open Idealize.ShloMosaic Idealize.ShloMosaic.ValueIdx

variable {s t si su : Shape} {φ : FTy}

theorem isReal_gather {w : Nat} (d : GatherDims s si t) (x : s.Idx → EReal) (idx : IVec si w) (hx : IsReal x) :
    IsReal (Host.gather d x idx) := fun _ => hx _

theorem isReal_broadcastInDim (dims : Fin s.rank → Fin t.rank) (h : s.BroadcastsInDim t dims) (x : s.Idx → EReal)
    (hx : IsReal x) : IsReal (broadcastInDim t dims h x) := fun _ => hx _

theorem isReal_transpose (perm : List (Fin s.rank)) (x : s.Idx → EReal) (h : s.Transposes perm t) (hx : IsReal x) :
    IsReal (transpose t perm x h) := fun _ => hx _

theorem isReal_shapeCast (x : s.Idx → EReal) (h : s.ShapeCasts t) (hx : IsReal x) : IsReal (shapeCast t x h) :=
  fun _ => hx _

theorem isReal_scatterAdd {w : Nat} (d : ScatterDims s si su) (x : FVec Ideal s φ) (idx : IVec si w) (upd : FVec Ideal su φ)
    (hx : IsReal x) (hu : IsReal upd) : IsReal (Host.scatterAdd d x idx upd) := by
  intro i
  show ∃ r : ℝ, x i + ∑ j ∈ Finset.univ.filter (fun j => d.resultIdx? j idx = some i), upd j = (r : EReal)
  exact isReal_add (hx i) (isReal_sum _ _ hu)

theorem isReal_const_zero : IsReal (constant (F := Ideal) ⟨0, ![]⟩ .f32 0x00000000#32) :=
  fun _ => ⟨0, by show Ideal.ofBits .f32 0x00000000#32 = _; rw [Ideal.ofBits_zero_f32]; rfl⟩

theorem isReal_const_one : IsReal (constant (F := Ideal) ⟨0, ![]⟩ .f32 0x3F800000#32) :=
  fun _ => ⟨1, by show Ideal.ofBits .f32 0x3F800000#32 = _; rw [Ideal.ofBits_one_f32]; rfl⟩

theorem isReal_addf (a b : FVec Ideal s φ) (ha : IsReal a) (hb : IsReal b) : IsReal (addf a b) :=
  fun i => isReal_add (ha i) (hb i)

theorem isReal_mulf (a b : FVec Ideal s φ) (ha : IsReal a) (hb : IsReal b) : IsReal (mulf a b) :=
  fun i => isReal_mul (ha i) (hb i)

theorem isReal_maximumf (a b : FVec Ideal s φ) (ha : IsReal a) (hb : IsReal b) : IsReal (maximumf a b) :=
  fun i => isReal_max (ha i) (hb i)

/-- A maximum with one is not zero. -/
theorem max_one_ne_zero (a : EReal) : max a 1 ≠ 0 :=
  ne_of_gt (lt_of_lt_of_le zero_lt_one (le_max_right a 1))

/-- The quotient of one by a real number that is not zero is real. -/
theorem isReal_div_one {d : EReal} (hd : ∃ r : ℝ, d = r) (h0 : d ≠ 0) : ∃ r : ℝ, Ideal.div 1 d = (r : EReal) := by
  unfold Ideal.div
  rw [if_neg h0, one_mul]
  exact isReal_inv hd

/-- The guarded reciprocal `if 0 < d then 1 / d else 0` of a real number is real. -/
theorem isReal_guarded_inv {d : EReal} (hd : ∃ r : ℝ, d = r) :
    ∃ r : ℝ, Scalar.select (Ideal.cmp .ogt d 0) (Ideal.div 1 d) (0 : EReal) = (r : EReal) := by
  by_cases h : (0 : EReal) < d
  · have hc : Ideal.cmp .ogt d 0 = 1#1 := by simp [Ideal.cmp, h]
    rw [hc, show Scalar.select (1#1 : BitVec 1) (Ideal.div 1 d) (0 : EReal) = Ideal.div 1 d from rfl]
    exact isReal_div_one hd (ne_of_gt h)
  · have hc : Ideal.cmp .ogt d 0 = 0#1 := by simp [Ideal.cmp, h]
    rw [hc, show Scalar.select (0#1 : BitVec 1) (Ideal.div 1 d) (0 : EReal) = 0 from rfl]
    exact isReal_zero

end Cert.Lib

end
-- ==== Proof.Gate.lean ====
/-
  The gate column.

  Both programs compute the gate on the host, by the same operations: the logistic function `1 / (1 + e^(−x))` of the
  one global weight and of each of the 8192 local weights, their product row by row, laid out as an 8192 × 1 column.
  It is named here once so that the two sides meet in one term, and it is real whenever the weights are: the logistic
  function of a real number is a real number.
-/
import proofs.«105935_j56341380989597_2_alg».proof.KernelIdeal
import proofs.«105935_j56341380989597_2_alg».proof.Proof.LibRealSums
import proofs.«105935_j56341380989597_2_alg».proof.Proof.LibRealOps
import Idealize.ShloMosaic.PureOps.Ideal
import Idealize.ShloMosaic.Lib.IdealHost

noncomputable section

namespace Cert.Gnn

open Idealize.ShloMosaic Cert.Lib Cert.KernelIdeal

variable [Cert.KernelIdeal.Facts]
open Cert.KernelIdeal.Facts₀ Cert.KernelIdeal.Facts

/-- The gate column of the global weight `wg` and the local weights `wl`, as the host operations compute it. -/
def gateCol (wg : FVec Ideal S1 .f32) (wl : FVec Ideal S8192 .f32) : FVec Ideal S8192x1 .f32 :=
  broadcastInDim S8192x1 ![0] bcast_S8192_S8192x1_0
    (mulf
      (broadcastInDim S8192 ![0] bcast_S1_S8192_0
        (Host.divf (broadcastInDim S1 ![] bcast_S_S1 (constant (F := Ideal) S_ .f32 0x3F800000#32))
          (addf (broadcastInDim S1 ![] bcast_S_S1 (constant (F := Ideal) S_ .f32 0x3F800000#32)) (Host.exp (Host.negf wg)))))
      (Host.divf (broadcastInDim S8192 ![] bcast_S_S8192 (constant (F := Ideal) S_ .f32 0x3F800000#32))
        (addf (broadcastInDim S8192 ![] bcast_S_S8192 (constant (F := Ideal) S_ .f32 0x3F800000#32)) (Host.exp (Host.negf wl)))))

/-- `1 / (1 + e^(−x))` of a real number is a real number. -/
theorem isReal_logistic {x : EReal} (hx : ∃ r : ℝ, x = r) :
    ∃ r : ℝ, Ideal.div (Ideal.ofBits .f32 0x3F800000#32) (Ideal.ofBits .f32 0x3F800000#32 + Ideal.exp (-x)) = (r : EReal) := by
  obtain ⟨r, rfl⟩ := hx
  rw [Ideal.ofBits_one_f32]
  have h := Ideal.logistic_coe (r := r)
  unfold Ideal.logistic at h
  exact ⟨_, h⟩

/-- The gate column of real weights is real. -/
theorem isReal_gateCol {wg : FVec Ideal S1 .f32} {wl : FVec Ideal S8192 .f32} (hg : IsReal wg) (hl : IsReal wl) :
    IsReal (gateCol wg wl) := by
  unfold gateCol
  refine isReal_broadcastInDim _ _ _ (isReal_mulf _ _ (isReal_broadcastInDim _ _ _ ?_) ?_)
  · exact fun i => isReal_logistic (hg i)
  · exact fun i => isReal_logistic (hl i)

end Cert.Gnn

end
-- ==== Proof.Final.lean ====
/-
  The kernel's result array.

  Only the last step of each row block (`k = 3`) writes its output block back, and the eight blocks written tile the
  8192 × 256 result. At such a point all four neighbour blocks are in the accumulator, so the block written is the
  layer in its blended form `x + g · (agg − x)` read through the block: rows `1024 · i + p`. Hence the whole result array
  is that function of the arrays the region finds, and the arguments are unchanged.
-/
import proofs.«105935_j56341380989597_2_alg».proof.Proof.Accum
import proofs.«105935_j56341380989597_2_alg».proof.Proof.Gate
import Idealize.ShloMosaic.Lib.StableHlo.Run

set_option maxRecDepth 16384
set_option maxHeartbeats 1000000

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Found Cert.KernelIdeal.Blocks Cert.KernelIdeal.Accum Cert.Gnn
open Idealize.ShloMosaic.ValueIdx

variable (m : (ℓ : Loc nD τ sig) → Buf (Elt Ideal) ℓ) (ρ : Dev nD → PrngReg)

/-- The layer, blended form, of the arrays as the region finds them. -/
abbrev layer (c : Dev nD) : S8192x256.Idx → EReal := blended (adj m c) (feat m c) (wgt m c) (gate m c)

/-- What a last step writes back, entry by entry. -/
theorem written_apply (c : Dev nD) (t : Fin cfg0.N) (h0 : ¬t.val % 4 = 0) (h1 : t.val % 4 = 3) (p : Fin 1024) (q : Fin 256)
    (r : Fin 8192) (hr : r.val = 1024 * (t.val / 4) + p.val) :
    (outsAt0 m c t.val t.isLt).1 (ix2 p q) = layer m c (ix2 r q) := by
  rw [out_at_last m c t h0 h1]
  refine (Pay.finish_apply _ _ _ _ p q).trans ?_
  have hx : ownRows (grid0.coords t) ((hcond0_1 t).mpr h1) (iblk m c 1 t) (ix2 p q) = feat m c (ix2 r q) :=
    ((ownRows_apply t ((hcond0_1 t).mpr h1) (iblk m c 1 t) p q).trans (rd_feat_block m c t _ _)).trans
      (hr ▸ rd_val (feat m c) r q)
  have hg : iblk m c 3 t (ix2 p (0 : Fin 1)) = gate m c (ix2 r (0 : Fin 1)) :=
    (gate_block m c t p).trans (hr ▸ rd_val (gate m c) r (0 : Fin 1))
  have hacc : ∀ j : Fin 256, (outsAt0 m c t.val t.isLt).2 (ix2 p j) = nbr (adj m c) (feat m c) r j := fun j => by
    rw [acc_eq m c t.val t.isLt p j, h1, ← hr]
    exact part_four (adj m c) (feat m c) r j
  rw [hx, hg]
  show _ = feat m c (ix2 r q) + gate m c (ix2 r (0 : Fin 1)) * (agg (adj m c) (feat m c) (wgt m c) r q - feat m c (ix2 r q))
  unfold agg
  refine congrArg (fun z => feat m c (ix2 r q) + gate m c (ix2 r (0 : Fin 1)) * (max z 0 - feat m c (ix2 r q))) ?_
  exact Finset.sum_congr rfl fun j _ => congrArg₂ (· * ·) (hacc j) (wgt_block m c t j q)

/-- What a writing point writes back is its block of the layer. -/
theorem flushed_eq (c : Dev nD) (t : Fin cfg0.N) (hf : (cfg0.win 4).flush t = true) :
    (dats m 0 c).flushed 4 t = ((cfg0.win 4).blk t).view.read (Elt Ideal) (layer m c) := by
  have h1 : t.val % 4 = 3 := (flush0_4 t).mp hf
  have h0 : ¬t.val % 4 = 0 := by omega
  have hN : t.val < 32 := lt_of_lt_of_eq t.isLt (show cfg0.N = 32 from N_0)
  obtain ⟨-, -, -, -, -, -, -, -, e0, e1, -⟩ := idx_facts t
  rw [Value.flushed4 m c t]
  funext y
  obtain ⟨p, q, rfl⟩ : ∃ (p : Fin 1024) (q : Fin 256), y = ix2 p q := ⟨y 0, y 1, eq_ix2 y⟩
  rw [View.read_apply]
  have hp : p.val < 1024 := p.isLt
  have hi : ((cfg0.win 4).blk t).view.emb (ix2 p q) = ix2 (⟨1024 * (t.val / 4) + p.val, by omega⟩ : Fin 8192) q := by
    funext a; apply Fin.ext
    match a with
    | ⟨0, _⟩ =>
      show win0_4.index t (0 : Fin 2) * 1024 + 1 * p.val = 1024 * (t.val / 4) + p.val
      rw [e0]; omega
    | ⟨1, _⟩ =>
      show win0_4.index t (1 : Fin 2) * 256 + 1 * q.val = q.val
      rw [e1]; omega
  rw [hi]
  exact written_apply m c t h0 h1 p q _ rfl

/-- An index of the result is in point `t`'s block iff each coordinate is in the block's range on its axis. -/
theorem mem_block (t : Fin cfg0.N) (i : S8192x256.Idx) :
    i ∈ ((cfg0.win 4).blk t).view.set ↔ ∀ a : Fin 2, win0_4.index t a * S1024x256.size a ≤ (i a).val
      ∧ (i a).val < win0_4.index t a * S1024x256.size a + S1024x256.size a := by
  show i ∈ ((View.whole main_v15).slice (win0_4.rect t)).set ↔ _
  rw [View.set_slice_whole, Rect.mem_set_unit]
  exact Iff.rfl

/-- Every index of the result is written by the last step of its row block. -/
theorem covered (i : S8192x256.Idx) : ∃ t : Fin cfg0.N, (cfg0.win 4).flush t = true ∧ i ∈ ((cfg0.win 4).blk t).view.set := by
  have hi0 : (i 0).val < 8192 := (i 0).isLt
  have hi1 : (i 1).val < 256 := (i 1).isLt
  have hN : cfg0.N = 32 := N_0
  let t : Fin cfg0.N := ⟨4 * ((i 0).val / 1024) + 3, by rw [hN]; omega⟩
  have ht : t.val = 4 * ((i 0).val / 1024) + 3 := rfl
  obtain ⟨-, -, -, -, -, -, -, -, e0, e1, -⟩ := idx_facts t
  refine ⟨t, (flush0_4 t).mpr (by rw [ht]; omega), ?_⟩
  rw [mem_block]
  intro a
  match a with
  | ⟨0, _⟩ =>
    show win0_4.index t (0 : Fin 2) * 1024 ≤ (i 0).val ∧ (i 0).val < win0_4.index t (0 : Fin 2) * 1024 + 1024
    rw [e0, ht]; omega
  | ⟨1, _⟩ =>
    show win0_4.index t (1 : Fin 2) * 256 ≤ (i 1).val ∧ (i 1).val < win0_4.index t (1 : Fin 2) * 256 + 256
    rw [e1]; omega

/-- The result array after the run is the layer of the arrays the region finds. -/
theorem result_eq (c : Dev nD) : (dats m 0 c).arrAt 4 cfg0.N = layer m c :=
  (dats m 0 c).arrAt_eq_of_cover 4 (layer m c) (flushed_eq m c) covered

/-- The gate column the region finds is the host's gate column of the two weight arguments. -/
theorem gate_eq (c : Dev nD) :
    gate m c = gateCol (m ((c : Thread nD τ).loc main_arg2)) (m ((c : Thread nD τ).loc main_arg3)) := by
  show (V m c main_v14 : S8192x1.Idx → EReal) = _
  dsimp only [Gen.V, Gen.hostOps0]
  after_results
  rfl

/-- The layer of the arguments' launch contents. -/
abbrev value (c : Dev nD) : S8192x256.Idx → EReal :=
  blended (m ((c : Thread nD τ).loc main_arg1)) (m ((c : Thread nD τ).loc main_arg0)) (m ((c : Thread nD τ).loc main_arg4))
    (gateCol (m ((c : Thread nD τ).loc main_arg2)) (m ((c : Thread nD τ).loc main_arg3)))

theorem layer_eq_value (c : Dev nD) : layer m c = value m c := by
  unfold layer value
  rw [gate_eq m c, show adj m c = m ((c : Thread nD τ).loc main_arg1) from V_main_arg1 m c,
    show feat m c = m ((c : Thread nD τ).loc main_arg0) from V_main_arg0 m c,
    show wgt m c = m ((c : Thread nD τ).loc main_arg4) from V_main_arg4 m c]

/-- The kernel's run: every weakly fair execution terminates with the result array at the layer of the arguments, the
    arguments unchanged. -/
theorem run : θ_run defs (onTc (τ := τ) (main (F := Ideal))) ⟨m, fun _ => 0, ρ⟩ fun r => ∀ c : Dev nD,
      r.2.mem ((c : Thread nD τ).loc main_v15) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((result_eq m c).trans (layer_eq_value m c)), (h c).2⟩)
    (Value.run_blocks m ρ)

end Cert.KernelIdeal.Final

end
-- ==== Proof.RefSide.lean ====
/-
  The reference computes the layer in its mixed form.

  Read one operation at a time: the first product is the neighbourhood sum, the second product followed by the maximum
  with zero is the aggregated feature, the column the host builds from the two weights is the gate column, and the last
  four operations are `g · agg + x − g · x`, the gate broadcast over the 256 features.
-/
import proofs.«105935_j56341380989597_2_alg».proof.Proof.Gen.ReferenceIdeal.Read
import proofs.«105935_j56341380989597_2_alg».proof.Proof.Gen.KernelIdeal
import proofs.«105935_j56341380989597_2_alg».proof.Proof.Spec
import proofs.«105935_j56341380989597_2_alg».proof.Proof.Gate
import Idealize.ShloMosaic.PureOps.Ideal.Laws

noncomputable section

namespace Cert.ReferenceIdeal.RefValue

open Cert.ReferenceIdeal Cert.ReferenceIdeal.Gen Cert.ReferenceIdeal.Read Cert.Gnn
open Idealize.ShloMosaic Idealize.ShloMosaic.ValueIdx

variable (x0 : FVec Ideal S8192x256 .f32) (x1 : FVec Ideal S8192x8192 .f32) (x2 : FVec Ideal S1 .f32)
  (x3 : FVec Ideal S8192 .f32) (x4 : FVec Ideal S256x256 .f32)

/-- The column the reference's host operations build is the gate column. -/
theorem column_eq : val_main_v17 (F := Ideal) x2 x3 = gateCol x2 x3 := rfl

/-- The first product is the neighbourhood sum. -/
theorem first_product (r : Fin 8192) (j : Fin 256) : val_main_v0 (F := Ideal) x0 x1 (ix2 r j) = nbr x1 x0 r j := by
  rw [val_main_v0_apply]
  unfold nbr
  refine Finset.sum_congr rfl fun n _ => ?_
  exact congrArg₂ (· * ·) (congrArg x1 (funext fun a => Fin.ext (by match a with | ⟨0, _⟩ => rfl | ⟨1, _⟩ => rfl))) (congrArg x0 (funext fun a => Fin.ext (by match a with | ⟨0, _⟩ => rfl | ⟨1, _⟩ => rfl)))

/-- The second product, rectified, is the aggregated feature. -/
theorem rectified (r : Fin 8192) (q : Fin 256) : val_main_v2 (F := Ideal) x0 x1 x4 (ix2 r q) = agg x1 x0 x4 r q := by
  rw [val_main_v2_apply, val_main_v1_apply, val_main_call0_v0_apply, val_main_call0_cst_apply]
  unfold agg
  show max (∑ k : Fin 256, val_main_v0 (F := Ideal) x0 x1 (lidx_main_v1 (ix2 r q) k) * x4 (ridx_main_v1 (ix2 r q) k))
    (Ideal.ofBits .f32 0x00000000#32) = _
  rw [Ideal.ofBits_zero_f32]
  refine congrArg (max · 0) (Finset.sum_congr rfl fun k _ => ?_)
  have el : lidx_main_v1 (ix2 r q) k = ix2 r k := (funext fun a => Fin.ext (by match a with | ⟨0, _⟩ => rfl | ⟨1, _⟩ => rfl))
  have er : ridx_main_v1 (ix2 r q) k = ix2 k q := (funext fun a => Fin.ext (by match a with | ⟨0, _⟩ => rfl | ⟨1, _⟩ => rfl))
  rw [el, er, first_product]

/-- The gate broadcast over the features reads the gate column in the row. -/
theorem gate_bcast (r : Fin 8192) (q : Fin 256) : val_main_v18 (F := Ideal) x2 x3 (ix2 r q) = gateCol x2 x3 (ix2 r (0 : Fin 1)) := by
  rw [val_main_v18_apply, column_eq]
  exact congrArg (gateCol x2 x3) (funext fun a => Fin.ext (by match a with | ⟨0, _⟩ => rfl | ⟨1, _⟩ => rfl))

theorem gate_bcast' (r : Fin 8192) (q : Fin 256) : val_main_v21 (F := Ideal) x2 x3 (ix2 r q) = gateCol x2 x3 (ix2 r (0 : Fin 1)) := by
  rw [val_main_v21_apply, column_eq]
  exact congrArg (gateCol x2 x3) (funext fun a => Fin.ext (by match a with | ⟨0, _⟩ => rfl | ⟨1, _⟩ => rfl))

/-- The reference's result is the layer in its mixed form. -/
theorem result_eq_mixed : val_main_v23 (F := Ideal) x0 x1 x2 x3 x4 = mixed x1 x0 x4 (gateCol x2 x3) := by
  funext i
  obtain ⟨r, q, rfl⟩ : ∃ (r : Fin 8192) (q : Fin 256), i = ix2 r q := ⟨i 0, i 1, eq_ix2 i⟩
  rw [val_main_v23_apply, val_main_v20_apply, val_main_v19_apply, val_main_v22_apply, gate_bcast, gate_bcast', rectified]
  rfl

end Cert.ReferenceIdeal.RefValue

end
-- ==== Proof.LibFactoredContract.lean ====
/-
  Two ways to contract a row with a low-rank weight, on the extended reals.

  For a row `a` over `ι`, a factor `v` over `κ × ι` and a weight `w` over `κ`, all of whose entries are REAL
  numbers (no `±∞`), projecting the row first and then weighting,

      ∑ r, (∑ i, a i * v r i) * w r,

  equals contracting the row with the materialised weight `∑ r, w r * v r i`,

      ∑ i, a i * ∑ r, w r * v r i.

  On the reals this is distributivity and an exchange of the two finite sums. On the extended reals distributivity
  fails at the infinities, so the statement asks that every entry be real; the proof names the real witnesses, moves
  the coercion `ℝ → EReal` outside the sums and products, and is then the real identity.
-/
import Mathlib.Data.EReal.Basic
import Mathlib.Data.EReal.Operations
import Mathlib.Algebra.BigOperators.Ring.Finset
import Mathlib.Algebra.BigOperators.Group.Finset.Sigma
import Mathlib.Tactic.Ring

namespace Cert.Lib

open Finset

/-- An extended real that is a real number: neither `+∞` nor `-∞`. -/
def IsRealVal (x : EReal) : Prop := x ≠ ⊤ ∧ x ≠ ⊥

theorem IsRealVal.exists_coe {x : EReal} (h : IsRealVal x) : ∃ r : ℝ, x = (r : EReal) :=
  ⟨x.toReal, (EReal.coe_toReal h.1 h.2).symm⟩

theorem isRealVal_coe (r : ℝ) : IsRealVal (r : EReal) := ⟨EReal.coe_ne_top r, EReal.coe_ne_bot r⟩

/-- The product of two real values is a real value. -/
theorem IsRealVal.mul {x y : EReal} (hx : IsRealVal x) (hy : IsRealVal y) : IsRealVal (x * y) := by
  obtain ⟨a, rfl⟩ := hx.exists_coe
  obtain ⟨b, rfl⟩ := hy.exists_coe
  rw [← EReal.coe_mul]; exact isRealVal_coe _

/-- The coercion of a finite real sum is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Projecting a row through the factor `v` and then weighting by `w` is contracting it with the materialised
    weight, when every entry is real. -/
theorem factored_contract {ι κ : Type*} [Fintype ι] [Fintype κ] (a : ι → EReal) (v : κ → ι → EReal) (w : κ → EReal)
    (ha : ∀ i, IsRealVal (a i)) (hv : ∀ r i, IsRealVal (v r i)) (hw : ∀ r, IsRealVal (w r)) :
    ∑ r, (∑ i, a i * v r i) * w r = ∑ i, a i * ∑ r, w r * v r i := by
  choose a' ha' using fun i => (ha i).exists_coe
  choose v' hv' using fun r i => (hv r i).exists_coe
  choose w' hw' using fun r => (hw r).exists_coe
  simp only [ha', hv', hw', ← EReal.coe_mul, ← coe_finset_sum]
  congr 1
  simp only [Finset.sum_mul, Finset.mul_sum]
  rw [Finset.sum_comm]
  refine Finset.sum_congr rfl fun i _ => Finset.sum_congr rfl fun r _ => ?_
  ring

end Cert.Lib
-- ==== Proof.LibFiniteDecode.lean ====
/-
  Reading "every entry is finite" back out of a printed precondition, and carrying it through a concatenation.

  A precondition `jnp.all(jnp.abs(x) < inf)` prints as a reduction by `and`, from the constant `1`, of the
  comparison `|x| < 0x7F800000` taken entry by entry; over the extended reals the pattern `0x7F800000` is `+∞` and
  `|x|` is `max x (-x)`. If the reduction came out `1` then every comparison did, and `max x (-x) < +∞` says that
  `x` is neither `+∞` nor `-∞`: a real number.

  A concatenation reads every one of its entries from one of its pieces, so any property every entry of every piece has
  (being real, in particular) every entry of the concatenation has.
-/
import Idealize.ShloMosaic.Lib.ReduceAll
import Idealize.ShloMosaic.Lib.ValueIdx
import Idealize.ShloMosaic.PureOps.Ideal.Laws
import proofs.«105935_j56341380989597_2_alg».proof.Proof.LibFactoredContract

noncomputable section

namespace Cert.Lib

open Idealize.ShloMosaic Idealize.ShloMosaic.ValueIdx

/-- The scalar shape: what `jnp.all` reduces into. -/
abbrev S0 : Shape := ⟨0, ![]⟩

/-- It has one index. -/
instance : Subsingleton S0.Idx := ⟨fun _ _ => funext fun d => d.elim0⟩

/-- The f32 pattern `0x7F800000` denotes `+∞`. -/
theorem ofBits_inf_f32 : Ideal.ofBits .f32 0x7F800000#32 = ⊤ := by simp [Ideal.ofBits, Ideal.ieee]

/-- An extended real whose absolute value `max x (-x)` compares below `+∞` is a real number. -/
theorem isRealVal_of_abs_lt_top (x : EReal) (h : Ideal.cmp .olt (max x (-x)) ⊤ = 1#1) : IsRealVal x := by
  have h' : max x (-x) < ⊤ := by
    by_contra hn
    simp [Ideal.cmp, hn] at h
  constructor
  · rintro rfl; simp at h'
  · rintro rfl; simp at h'

/-- `jnp.all(jnp.abs(x) < inf)` read back: if the printed reduction is `1`, every entry of `x` is a real number. -/
theorem isRealVal_of_all_abs_lt_inf {s : Shape} {axes : List (Fin s.rank)} (x : FVec Ideal s .f32)
    (hb : S0.BroadcastsInDim s (![] : Fin 0 → Fin s.rank)) (hr : s.ReducesTo axes S0) (hu : 0 < S0.numel)
    (e : Host.reduce IntOp.andi
        (cmpf .olt (Host.absf x) (broadcastInDim s ![] hb (constant (F := Ideal) S0 .f32 0x7F800000#32)))
        (constantI S0 1 1#1) hr hu ix0 = 1#1)
    (i : s.Idx) : IsRealVal (x i) := by
  have h := Host.reduce_andi_all _ _ hr hu ix0 e i
  refine isRealVal_of_abs_lt_top (x i) ?_
  rw [← ofBits_inf_f32]
  exact h

/-- Whatever holds of every entry of every piece holds of every entry of their concatenation. -/
theorem concatenate_forall {α : Type} (P : α → Prop) (t : Shape) (a : Fin t.rank) (xs : List ((s : Shape) × (s.Idx → α)))
    (h : Shape.Concatenates (xs.map (·.1)) t a) (hP : ∀ p ∈ xs, ∀ i, P (p.2 i)) (j : t.Idx) :
    P (concatenate t a xs h j) := by
  unfold concatenate
  exact hP _ (List.getElem_mem _) _

end Cert.Lib

end
-- ==== Proof.Finite.lean ====
/-
  The precondition says: every entry of every argument is a real number.

  The printed predicate is the conjunction, argument by argument, of `all (|x| < +∞)`. Its value `1` gives each
  conjunct the value `1`, and each of those says that no entry of the argument is `+∞` or `−∞`.
-/
import proofs.«105935_j56341380989597_2_alg».proof.Pre_finite_inputs
import proofs.«105935_j56341380989597_2_alg».proof.Proof.LibFiniteDecode
import proofs.«105935_j56341380989597_2_alg».proof.Proof.LibRealSums
import Idealize.ShloMosaic.Lib.Affine

noncomputable section

namespace Cert.Pre_finite_inputs.Decode

open Idealize.ShloMosaic Cert.Lib Cert.Pre_finite_inputs

variable [Cert.Pre_finite_inputs.Facts]
open Cert.Pre_finite_inputs.Facts

/-- If the printed predicate is all ones, the five arguments hold real numbers only. -/
theorem all_real (x0 : FVec Ideal S8192x256 .f32) (x1 : FVec Ideal S8192x8192 .f32) (x2 : FVec Ideal S1 .f32)
    (x3 : FVec Ideal S8192 .f32) (x4 : FVec Ideal S256x256 .f32)
    (h : fn (F := Ideal) x0 x1 x2 x3 x4 = fun _ => 1#1) :
    IsReal x0 ∧ IsReal x1 ∧ IsReal x2 ∧ IsReal x3 ∧ IsReal x4 := by
  have e := congrFun h ValueIdx.ix0
  dsimp only [fn, fn_part1] at e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨fun i => (isRealVal_of_all_abs_lt_inf x0 _ _ _ e0 i).exists_coe,
    fun i => (isRealVal_of_all_abs_lt_inf x1 _ _ _ e1 i).exists_coe,
    fun i => (isRealVal_of_all_abs_lt_inf x2 _ _ _ e2 i).exists_coe,
    fun i => (isRealVal_of_all_abs_lt_inf x3 _ _ _ e3 i).exists_coe,
    fun i => (isRealVal_of_all_abs_lt_inf x4 _ _ _ e4 i).exists_coe⟩

end Cert.Pre_finite_inputs.Decode

end
-- ==== Proof.lean ====
/-
  One graph-convolution layer with a gated residual, on 8192 nodes with 256 features: the tiled kernel and the plain
  array program compute the same function over the extended reals.

  With `agg = max ((A X) W) 0` and the gate `g r = σ(w_global) · σ(w_local r)` (`σ` the logistic function), the kernel's
  result is `X + g · (agg − X)` and the reference's is `g · agg + X − g · X`.
  * Kernel: the grid has 8 row blocks of 1024 nodes times 4 blocks of 2048 neighbours. An accumulator carried across the
    four steps of a row block collects the neighbourhood sum `A X` block by block (a sum regrouped, which needs no
    finiteness); the last step multiplies by `W`, rectifies, blends with the block's own rows of `X` and writes the block
    back. The eight blocks written tile the result.
  * Reference: two matrix products, a maximum with zero, and the mixed form, read operation by operation.
  * The gate is computed by the same host operations in both programs.
  * The two forms differ by distributivity, which holds for real numbers only; the precondition says every argument entry
    is real, and then so are the gate, the sums and the aggregated features.
  The three frame claims are the generated frame runs (the reference's is its run with the result dropped), and the
  idealization rewrote nothing.
-/
import proofs.«105935_j56341380989597_2_alg».proof.Defs
import proofs.«105935_j56341380989597_2_alg».proof.Proof.Gen.Kernel
import proofs.«105935_j56341380989597_2_alg».proof.Proof.Gen.Kernel.Skeleton
import proofs.«105935_j56341380989597_2_alg».proof.Proof.Gen.Kernel.Launch
import proofs.«105935_j56341380989597_2_alg».proof.Proof.Gen.Kernel.Points
import proofs.«105935_j56341380989597_2_alg».proof.Proof.Gen.Kernel.Frame
import proofs.«105935_j56341380989597_2_alg».proof.Proof.Gen.KernelIdeal
import proofs.«105935_j56341380989597_2_alg».proof.Proof.Gen.KernelIdeal.Skeleton
import proofs.«105935_j56341380989597_2_alg».proof.Proof.Gen.KernelIdeal.Launch
import proofs.«105935_j56341380989597_2_alg».proof.Proof.Gen.KernelIdeal.Points
import proofs.«105935_j56341380989597_2_alg».proof.Proof.Gen.KernelIdeal.Frame
import proofs.«105935_j56341380989597_2_alg».proof.Proof.Gen.ReferenceIdeal
import proofs.«105935_j56341380989597_2_alg».proof.Proof.Gen.Pre_finite_inputs
import proofs.«105935_j56341380989597_2_alg».proof.Proof.Gen.KernelIdeal.Value
import proofs.«105935_j56341380989597_2_alg».proof.Proof.Gen.ReferenceIdeal.Run
import proofs.«105935_j56341380989597_2_alg».proof.Proof.Gen.ReferenceIdeal.Read
import proofs.«105935_j56341380989597_2_alg».proof.Proof.Final
import proofs.«105935_j56341380989597_2_alg».proof.Proof.RefSide
import proofs.«105935_j56341380989597_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, all of whose entries are real, the kernel's result array ends at the
    blended form of the layer and the reference's at the mixed form: one function on real entries. -/
theorem algebraic : Cert.algebraic_KernelIdeal_ReferenceIdeal := by
  intro m ρ m' ρ' hpre hagree
  refine ⟨fun c => Cert.KernelIdeal.Final.value m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq_mixed,
    (hagree c).1, (hagree c).2.1, (hagree c).2.2.1, (hagree c).2.2.2.1, (hagree c).2.2.2.2]
  obtain ⟨h0, h1, h2, h3, h4⟩ := Cert.Pre_finite_inputs.Decode.all_real _ _ _ _ _ (hpre c)
  exact (Cert.Gnn.blended_eq_mixed h1 h0 h4 (Cert.Gnn.isReal_gateCol h2 h3)).symm

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
